-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S5x256 : Shape := ⟨2, ![5, 256]⟩
abbrev S5 : Shape := ⟨1, ![5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S5x256 : S_.BroadcastsInDim S5x256 (![] : Fin 0 → Fin S5x256.rank)
  reducesTo_S5x256_S_d0_1 : S5x256.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg5 : FVec F S5x256 .f32) (main_arg6 : FVec F S5 .f32) (main_arg7 : FVec F S5x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S5x256 .f32 := Host.absf main_arg5
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S5x256 .f32 := Host.absf main_arg7
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S5x256 .f32) (main_arg6 : FVec F S5 .f32) (main_arg7 : FVec F S5x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S5x256 : Shape := ⟨2, ![5, 256]⟩
abbrev S5 : Shape := ⟨1, ![5]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x5 : Shape := ⟨2, ![256, 5]⟩
abbrev S1x5 : Shape := ⟨2, ![1, 5]⟩
abbrev S50000x5 : Shape := ⟨2, ![50000, 5]⟩
abbrev S2000x5 : Shape := ⟨2, ![2000, 5]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S5x256, .f32⟩
  | .hbm, ⟨6, _⟩ => ⟨S5, .f32⟩
  | .hbm, ⟨7, _⟩ => ⟨S5x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S128x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S256x5, .f32⟩
  | .hbm, ⟨61, _⟩ => ⟨S256x5, .f32⟩
  | .hbm, ⟨62, _⟩ => ⟨S1x5, .f32⟩
  | .hbm, ⟨63, _⟩ => ⟨S50000x5, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x5, .f32⟩
  | .local _ .vmem, ⟨14, _⟩ => ⟨S256x5, .f32⟩
  | .local _ .vmem, ⟨15, _⟩ => ⟨S1x5, .f32⟩
  | .local _ .vmem, ⟨16, _⟩ => ⟨S2000x5, .f32⟩
  | .local _ .vmem, ⟨17, _⟩ => ⟨S2000x5, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S5x256_S256x5_1_0 : S5x256.Transposes [1, 0] S256x5
  shapeCasts_S5_S1x5 : S5.ShapeCasts S1x5
  shapeCasts_S2000x256_S2000x256 : S2000x256.ShapeCasts S2000x256
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x5_S2000x5_1_0_0_1_n_n_wf : DotDims.WF S2000x256 S256x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x5.size a ≤ S256x5.size a
  hwx1_2 : ∀ i : grid1.Coords, EltTy.bits .f32 = 32 ∨ (Rect.block (s := S256x5) S256x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x5.size a ≤ S256x5.size a
  hwx1_3 : ∀ i : grid1.Coords, EltTy.bits .f32 = 32 ∨ (Rect.block (s := S256x5) S256x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x5.size a ≤ S50000x5.size a
  hwx1_5 : ∀ i : grid1.Coords, EltTy.bits .f32 = 32 ∨ (Rect.block (s := S50000x5) S2000x5.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x5_S2000x5_1_0_0_1_n_n : DotDims S2000x256 S256x5 S2000x5 where
  lhsContracting := [1]
  rhsContracting := [0]
  lhsNonContracting := [0]
  rhsNonContracting := [1]
  lhsBatch := []
  rhsBatch := []
  wf := dot_S2000x256_S256x5_S2000x5_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S256x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S5x256 : Shape := ⟨2, ![5, 256]⟩
abbrev S5 : Shape := ⟨1, ![5]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x5 : Shape := ⟨2, ![256, 5]⟩
abbrev S50000x5 : Shape := ⟨2, ![50000, 5]⟩
abbrev S1x5 : Shape := ⟨2, ![1, 5]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S5x256, .f32⟩
  | .hbm, ⟨6, _⟩ => ⟨S5, .f32⟩
  | .hbm, ⟨7, _⟩ => ⟨S5x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x5, .f32⟩
  | .hbm, ⟨74, _⟩ => ⟨S50000x5, .f32⟩
  | .hbm, ⟨75, _⟩ => ⟨S1x5, .f32⟩
  | .hbm, ⟨76, _⟩ => ⟨S50000x5, .f32⟩
  | .hbm, ⟨77, _⟩ => ⟨S50000x5, .f32⟩
  | .hbm, ⟨78, _⟩ => ⟨S256x5, .f32⟩
  | .hbm, ⟨79, _⟩ => ⟨S50000x5, .f32⟩
  | .hbm, ⟨80, _⟩ => ⟨S50000x5, .f32⟩
  | .hbm, ⟨81, _⟩ => ⟨S_, .f32⟩
  | .hbm, ⟨82, _⟩ => ⟨S50000x5, .f32⟩
  | .hbm, ⟨83, _⟩ => ⟨S50000x5, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S5x256_S256x5_1_0 : S5x256.Transposes [1, 0] S256x5
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  bcast_S_S50000x5 : S_.BroadcastsInDim S50000x5 (![] : Fin 0 → Fin S50000x5.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x5_S50000x5_1_0_0_1_n_n_wf : DotDims.WF S50000x256 S256x5 S50000x5 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x5_S50000x5_1_0_0_1_n_n : DotDims S50000x256 S256x5 S50000x5 where
  lhsContracting := [1]
  rhsContracting := [0]
  lhsNonContracting := [0]
  rhsNonContracting := [1]
  lhsBatch := []
  rhsBatch := []
  wf := dot_S50000x256_S256x5_S50000x5_1_0_0_1_n_n_wf

class Facts : Prop extends Facts₀ where

variable [Facts]
-- ==== Proof.KRun.lean ====
/-
  The idealized kernel's run with its RESULT array named. Every weakly fair execution of @main terminates without a
  fault; the result array `main_v45` ends at the last boundary's contents (what the second region's write-backs leave
  in its output array), and the eight argument arrays end as launched. The program is two regions among two stretches of
  host operations; the run is the library's launch over those four segments, and the final thread state — every
  unscoped buffer at the last boundary's contents — is read against the final memory, here for the result array too.
-/
import proofs.«123070_j77180562309272_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_out : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.Spec.lean ====
/-
  One GraphSAGE layer on the extended reals, index by index, in the two arrangements the two programs use.

  Kernel arrangement (`layerK`): the neighbour mean arrives already divided (as a product with the reciprocal count),
  both weight matrices arrive transposed, `[D, O]`, the bias as a `[1, O]` row, and the bias is added LAST:
      max ((Σ_k mean(r,k)·wl(k,q) + Σ_k x(r,k)·wr(k,q)) + b(0,q)) 0.
  Reference arrangement (`layerR`): the neighbour sum `agg` is divided by the clamped count inside the sum, the
  weights are the untransposed `[O, D]` arguments, and the bias is added BETWEEN the two products:
      max (((Σ_k (agg(r,k) / cnt r)·Wl(q,k)) + bl q) + Σ_k x(r,k)·Wr(q,k)) 0.
  The two agree whenever the count is nonzero: `a · (1 / c) = a / c` off `c = 0` (both are `a · c⁻¹` there, at the
  infinities too), and `(s + t) + b = (s + b) + t` is commutativity and associativity of the extended reals' sum,
  which hold at the infinities. No finiteness of the inputs is used.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Sage

/-- The f32 word of `0.0`, as both programs print it. -/
abbrev zeroW : EReal := Ideal.ofBits .f32 0x00000000#32
/-- The f32 word of `1.0`, as both programs print it. -/
abbrev oneW : EReal := Ideal.ofBits .f32 0x3F800000#32

/-- One layer in the kernel's arrangement. -/
def layerK (N D O : Nat) (mean x : (⟨2, ![N, D]⟩ : Shape).Idx → EReal) (wl wr : (⟨2, ![D, O]⟩ : Shape).Idx → EReal)
    (b : (⟨2, ![1, O]⟩ : Shape).Idx → EReal) : (⟨2, ![N, O]⟩ : Shape).Idx → EReal :=
  fun i => max ((∑ k : Fin D, mean (ix2 (i 0) k) * wl (ix2 k (i 1)) + ∑ k : Fin D, x (ix2 (i 0) k) * wr (ix2 k (i 1)))
    + b (ix2 (0 : Fin 1) (i 1))) zeroW

/-- One layer in the reference's arrangement. -/
def layerR (N D O : Nat) (agg : (⟨2, ![N, D]⟩ : Shape).Idx → EReal) (cnt : (⟨1, ![N]⟩ : Shape).Idx → EReal)
    (x : (⟨2, ![N, D]⟩ : Shape).Idx → EReal) (Wl : (⟨2, ![O, D]⟩ : Shape).Idx → EReal) (bl : (⟨1, ![O]⟩ : Shape).Idx → EReal)
    (Wr : (⟨2, ![O, D]⟩ : Shape).Idx → EReal) : (⟨2, ![N, O]⟩ : Shape).Idx → EReal :=
  fun i => max (((∑ k : Fin D, Ideal.div (agg (ix2 (i 0) k)) (cnt (ix1 (i 0))) * Wl (ix2 (i 1) k)) + bl (ix1 (i 1)))
    + ∑ k : Fin D, x (ix2 (i 0) k) * Wr (ix2 (i 1) k)) zeroW

/-- The word `0x3F800000` denotes the real one. -/
theorem oneW_eq : oneW = 1 := by
  simp [oneW, Ideal.ofBits, Ideal.ieee]
  norm_cast
  norm_num

/-- Off a zero divisor, multiplying by the quotient `1 / c` is dividing by `c`. -/
theorem mul_div_one (a c : EReal) (hc : c ≠ 0) : a * Ideal.div oneW c = Ideal.div a c := by
  rw [oneW_eq, Ideal.div, Ideal.div, if_neg hc, if_neg hc, one_mul]

/-- The kernel's arrangement of the layer, fed the mean as `agg · (1 / cnt)`, the transposed weights and the bias row,
    is the reference's arrangement. -/
theorem layerK_eq_layerR (N D O : Nat) (agg : (⟨2, ![N, D]⟩ : Shape).Idx → EReal) (cnt : (⟨1, ![N]⟩ : Shape).Idx → EReal)
    (x : (⟨2, ![N, D]⟩ : Shape).Idx → EReal) (Wl : (⟨2, ![O, D]⟩ : Shape).Idx → EReal) (bl : (⟨1, ![O]⟩ : Shape).Idx → EReal)
    (Wr : (⟨2, ![O, D]⟩ : Shape).Idx → EReal) (hc : ∀ r, cnt r ≠ 0) :
    layerK N D O (fun j => agg j * Ideal.div oneW (cnt (ix1 (j 0)))) x (fun j => Wl (ix2 (j 1) (j 0)))
        (fun j => Wr (ix2 (j 1) (j 0))) (fun j => bl (ix1 (j 1)))
      = layerR N D O agg cnt x Wl bl Wr := by
  funext i
  unfold layerK layerR
  simp only [mul_div_one _ _ (hc _)]
  rw [add_right_comm]
  rfl

end Cert.Sage

end
-- ==== Proof.Glue0.lean ====
/-
  What the first region FINDS in its five input arrays, as functions of the argument arrays, and with it the hidden
  layer. The host operations before the region compute, from the edge list, the neighbour sum `agg` of the node
  features (a gather along the sources, a scatter-add along the destinations) and the clamped in-degree
  `cnt = max (Σ 1, 1)`, and hand the region `agg · (1 / cnt)` row by row, the features themselves, the two weight
  matrices transposed, and the bias as a one-row matrix. The gather, the scatter and the degree count are the SAME
  operations, on the same operands, as the reference's: they are never opened here, only named by the reference's
  stages. So the region's output array — the kernel-arrangement layer of those five arrays — is the reference's
  hidden layer: the reference-arrangement layer of `agg`, `cnt` and the arguments.
-/
import proofs.«123070_j77180562309272_1_alg».proof.Proof.Gen.KernelIdeal.Frame
import proofs.«123070_j77180562309272_1_alg».proof.Proof.Gen.ReferenceIdeal.Read
import proofs.«123070_j77180562309272_1_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Sage

open Cert.KernelIdeal Cert.KernelIdeal.Gen
open Cert.ReferenceIdeal.Read

/-! ## Layout operations of the host side, read at an index -/

/-- The host's quotient of two arrays is the quotient of the entries. -/
theorem hostDivf_apply {s : Shape} (a b : FVec Ideal s .f32) (i : s.Idx) : Host.divf a b i = Ideal.div (a i) (b i) := rfl

/-- A scalar broadcast to `[50000]` reads the scalar. -/
theorem bcast_scalar_rows (y : S_.Idx → EReal) (i : S50000.Idx) :
    broadcastInDim S50000 ![] bcast_S_S50000 y i = y ix0 :=
  broadcastInDim_apply _ bcast_S_S50000 y i ix0 (fun a => a.elim0)

/-- A `[50000]` column broadcast to `[50000, 1]` and on to `[50000, 128]` reads the row's entry. -/
theorem bcast_rows128 (y : S50000.Idx → EReal) (j : S50000x128.Idx) :
    broadcastInDim S50000x128 ![0, 1] bcast_S50000x1_S50000x128_0_1 (broadcastInDim S50000x1 ![0] bcast_S50000_S50000x1_0 y) j
      = y (ix1 (j 0)) := by
  refine (broadcastInDim_apply _ bcast_S50000x1_S50000x128_0_1 _ j (ix2 (j 0) (0 : Fin 1)) (fun a => match a with
    | ⟨0, _⟩ => by show (j 0).val = if (50000 : Nat) = 1 then 0 else (j 0).val; rw [if_neg (by decide)]
    | ⟨1, _⟩ => by show 0 = if (1 : Nat) = 1 then 0 else (j 1).val; rw [if_pos rfl])).trans ?_
  exact broadcastInDim_apply _ bcast_S50000_S50000x1_0 y _ (ix1 (j 0)) (fun a => match a with
    | ⟨0, _⟩ => by show (j 0).val = if (50000 : Nat) = 1 then 0 else (j 0).val; rw [if_neg (by decide)])

/-- A `[256, 128]` matrix transposed reads the mirrored entry. -/
theorem transpose_w1 (x : S256x128.Idx → EReal) (j : S128x256.Idx) :
    transpose S128x256 [1, 0] x transposes_S256x128_S128x256_1_0 j = x (ix2 (j 1) (j 0)) :=
  transpose_apply [1, 0] x transposes_S256x128_S128x256_1_0 j (ix2 (j 1) (j 0)) (fun b => match b with
    | ⟨0, _⟩ => rfl
    | ⟨1, _⟩ => rfl)

/-- A `[256]` vector recast as the one-row matrix `[1, 256]` reads its column's entry. -/
theorem reshape_b1 (x : S256.Idx → EReal) (j : S1x256.Idx) :
    shapeCast S1x256 x shapeCasts_S256_S1x256 j = x (ix1 (j 1)) :=
  shapeCast_apply x shapeCasts_S256_S1x256 j (ix1 (j 1)) (by
    rw [Shape.rowMajor_val_one, Shape.rowMajor_val_two]
    have h0 : (j 0).val = 0 := Nat.lt_one_iff.mp (j 0).isLt
    show (j 1).val = (j 0).val * 256 + (j 1).val
    omega)

variable (m : (ℓ : Loc nD τ sig) → Buf (Elt Ideal) ℓ) (ρ : Dev nD → PrngReg) (c : Dev nD)

/-! ## The first region's input arrays at its entry -/

/-- The mean's array: the neighbour sum times the reciprocal of the clamped in-degree, row by row. -/
theorem entry0_mean :
    Gen.V1 (F := Ideal) m ρ c main_v24
      = fun j => val_main_v13 (F := Ideal) (m ((c : Thread nD τ).loc main_arg0)) (m ((c : Thread nD τ).loc main_arg1)) j
          * Ideal.div Cert.Sage.oneW (val_main_v19 (F := Ideal) (m ((c : Thread nD τ).loc main_arg1)) (ix1 (j 0))) := by
  have e : (Gen.W1 (F := Ideal) m ρ c (Proc.devRef .tc main_v24) : FVec Ideal S50000x128 .f32)
      = mulf (F := Ideal) (val_main_v13 (F := Ideal) (m ((c : Thread nD τ).loc main_arg0)) (m ((c : Thread nD τ).loc main_arg1)))
          (broadcastInDim S50000x128 ![0, 1] bcast_S50000x1_S50000x128_0_1 (broadcastInDim S50000x1 ![0] bcast_S50000_S50000x1_0
            (Host.divf (broadcastInDim S50000 ![] bcast_S_S50000 (constant S_ .f32 0x3F800000#32))
              (val_main_v19 (F := Ideal) (m ((c : Thread nD τ).loc main_arg1)))))) := by
    dsimp only [Gen.W1, Gen.hostOps0]
    after_results_simp
    rfl
  show Gen.W1 (F := Ideal) m ρ c (Proc.devRef .tc main_v24) = _
  rw [e]
  funext j
  refine (mulf_apply _ _ j).trans (congrArg (_ * ·) ?_)
  refine (bcast_rows128 _ j).trans ?_
  refine (hostDivf_apply _ _ _).trans ?_
  rw [bcast_scalar_rows]
  rfl

/-- The features' array is the first argument, as launched. -/
theorem entry0_x : Gen.V1 (F := Ideal) m ρ c main_arg0 = m ((c : Thread nD τ).loc main_arg0) := by
  show Gen.W1 (F := Ideal) m ρ c (Proc.devRef .tc main_arg0) = _
  dsimp only [Gen.W1, Gen.hostOps0]
  after_results_simp

/-- The neighbour weights' array is `W1l` transposed. -/
theorem entry0_wl : Gen.V1 (F := Ideal) m ρ c main_v25 = fun j => m ((c : Thread nD τ).loc main_arg2) (ix2 (j 1) (j 0)) := by
  show Gen.W1 (F := Ideal) m ρ c (Proc.devRef .tc main_v25) = _
  dsimp only [Gen.W1, Gen.hostOps0]
  after_results_simp
  funext j
  exact transpose_w1 _ j

/-- The root weights' array is `W1r` transposed. -/
theorem entry0_wr : Gen.V1 (F := Ideal) m ρ c main_v26 = fun j => m ((c : Thread nD τ).loc main_arg4) (ix2 (j 1) (j 0)) := by
  show Gen.W1 (F := Ideal) m ρ c (Proc.devRef .tc main_v26) = _
  dsimp only [Gen.W1, Gen.hostOps0]
  after_results_simp
  funext j
  exact transpose_w1 _ j

/-- The bias row's array is `b1l` as a one-row matrix. -/
theorem entry0_b : Gen.V1 (F := Ideal) m ρ c main_v27 = fun j => m ((c : Thread nD τ).loc main_arg3) (ix1 (j 1)) := by
  show Gen.W1 (F := Ideal) m ρ c (Proc.devRef .tc main_v27) = _
  dsimp only [Gen.W1, Gen.hostOps0]
  after_results_simp
  funext j
  exact reshape_b1 _ j

/-! ## The hidden layer -/

/-- At the first region's exit its output array is the reference's hidden layer `val_main_v31` of the arguments:
    the region's array is the kernel-arrangement layer of its five inputs (`hreg`), those are the arrays above, and
    the two arrangements agree because the clamped in-degree is never zero (`hcnt`); the reference's stage is the
    reference-arrangement layer (`href`). -/
theorem hidden_eq
    (hreg : (Gen.dat0 (F := Ideal) (Gen.V1 m ρ) c).arrAt 5 cfg0.N
        = Cert.Sage.layerK 50000 128 256 (Gen.V1 m ρ c (Pipeline.arrRef spec0 0)) (Gen.V1 m ρ c (Pipeline.arrRef spec0 1))
            (Gen.V1 m ρ c (Pipeline.arrRef spec0 2)) (Gen.V1 m ρ c (Pipeline.arrRef spec0 3)) (Gen.V1 m ρ c (Pipeline.arrRef spec0 4)))
    (href : val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
        = Cert.Sage.layerR 50000 128 256
            (val_main_v13 (F := Ideal) (m ((c : Thread nD τ).loc main_arg0)) (m ((c : Thread nD τ).loc main_arg1)))
            (val_main_v19 (F := Ideal) (m ((c : Thread nD τ).loc main_arg1)))
            (m ((c : Thread nD τ).loc main_arg0)) (m ((c : Thread nD τ).loc main_arg2)) (m ((c : Thread nD τ).loc main_arg3))
            (m ((c : Thread nD τ).loc main_arg4)))
    (hcnt : ∀ r, val_main_v19 (F := Ideal) (m ((c : Thread nD τ).loc main_arg1)) r ≠ 0) :
    Gen.W2 (F := Ideal) m ρ c (Proc.devRef .tc main_v28)
      = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.W2_arr m ρ c 5).trans (hreg.trans ?_)
  rw [href, show Gen.V1 (F := Ideal) m ρ c (Pipeline.arrRef spec0 0) = _ from entry0_mean m ρ c,
    show Gen.V1 (F := Ideal) m ρ c (Pipeline.arrRef spec0 1) = _ from entry0_x m ρ c,
    show Gen.V1 (F := Ideal) m ρ c (Pipeline.arrRef spec0 2) = _ from entry0_wl m ρ c,
    show Gen.V1 (F := Ideal) m ρ c (Pipeline.arrRef spec0 3) = _ from entry0_wr m ρ c,
    show Gen.V1 (F := Ideal) m ρ c (Pipeline.arrRef spec0 4) = _ from entry0_b m ρ c]
  exact Cert.Sage.layerK_eq_layerR 50000 128 256 _ _ _ _ _ _ hcnt

end Cert.KernelIdeal.Sage

end
-- ==== Proof.Glue1.lean ====
/-
  What the SECOND region finds in its five input arrays, and with it the result. Between the regions the host
  operations repeat the aggregation on the hidden layer `h` the first region wrote: the neighbour sum of `h`'s rows
  (the same gather along the sources and scatter-add along the destinations) times the SAME reciprocal clamped
  in-degree computed before the first region; the second region also gets `h` itself, the second layer's weights
  transposed and its bias as a one-row matrix. Buffers the first region does not write (the edge list's two rows, the
  reciprocal degree, the arguments) keep their contents across it. The reference recomputes the clamped in-degree for
  its second layer, by the same operations on the same operand: the same term. So the second region's output array —
  the kernel-arrangement layer of its inputs — is the reference's result, the reference-arrangement layer of the
  neighbour sum of `h`, the clamped in-degree, `h` and the arguments.
-/
import proofs.«123070_j77180562309272_1_alg».proof.Proof.Glue0

set_option maxRecDepth 16384

noncomputable section

open Idealize.ShloMosaic Idealize.ShloMosaic.TcCoe Idealize.SL.Sem Idealize.ShloMosaic.ValueIdx Idealize.ShloMosaic.StableHlo

namespace Cert.KernelIdeal.Sage

open Cert.KernelIdeal Cert.KernelIdeal.Gen
open Cert.ReferenceIdeal.Read

/-- The layer is a function of its five arrays. -/
theorem layerK_congr {N D O : Nat} {mean mean' x x' : (⟨2, ![N, D]⟩ : Shape).Idx → EReal}
    {wl wl' wr wr' : (⟨2, ![D, O]⟩ : Shape).Idx → EReal} {b b' : (⟨2, ![1, O]⟩ : Shape).Idx → EReal}
    (h0 : mean = mean') (h1 : x = x') (h2 : wl = wl') (h3 : wr = wr') (h4 : b = b') :
    Cert.Sage.layerK N D O mean x wl wr b = Cert.Sage.layerK N D O mean' x' wl' wr' b' := by
  subst h0 h1 h2 h3 h4; rfl

/-! ## Layout operations of the host side, read at an index -/

/-- A `[50000]` column broadcast to `[50000, 1]` and on to `[50000, 256]` reads the row's entry. -/
theorem bcast_rows256 (y : S50000.Idx → EReal) (j : S50000x256.Idx) :
    broadcastInDim S50000x256 ![0, 1] bcast_S50000x1_S50000x256_0_1 (broadcastInDim S50000x1 ![0] bcast_S50000_S50000x1_0 y) j
      = y (ix1 (j 0)) := by
  refine (broadcastInDim_apply _ bcast_S50000x1_S50000x256_0_1 _ j (ix2 (j 0) (0 : Fin 1)) (fun a => match a with
    | ⟨0, _⟩ => by show (j 0).val = if (50000 : Nat) = 1 then 0 else (j 0).val; rw [if_neg (by decide)]
    | ⟨1, _⟩ => by show 0 = if (1 : Nat) = 1 then 0 else (j 1).val; rw [if_pos rfl])).trans ?_
  exact broadcastInDim_apply _ bcast_S50000_S50000x1_0 y _ (ix1 (j 0)) (fun a => match a with
    | ⟨0, _⟩ => by show (j 0).val = if (50000 : Nat) = 1 then 0 else (j 0).val; rw [if_neg (by decide)])

/-- A `[5, 256]` matrix transposed reads the mirrored entry. -/
theorem transpose_w2 (x : S5x256.Idx → EReal) (j : S256x5.Idx) :
    transpose S256x5 [1, 0] x transposes_S5x256_S256x5_1_0 j = x (ix2 (j 1) (j 0)) :=
  transpose_apply [1, 0] x transposes_S5x256_S256x5_1_0 j (ix2 (j 1) (j 0)) (fun b => match b with
    | ⟨0, _⟩ => rfl
    | ⟨1, _⟩ => rfl)

/-- A `[5]` vector recast as the one-row matrix `[1, 5]` reads its column's entry. -/
theorem reshape_b2 (x : S5.Idx → EReal) (j : S1x5.Idx) :
    shapeCast S1x5 x shapeCasts_S5_S1x5 j = x (ix1 (j 1)) :=
  shapeCast_apply x shapeCasts_S5_S1x5 j (ix1 (j 1)) (by
    rw [Shape.rowMajor_val_one, Shape.rowMajor_val_two]
    have h0 : (j 0).val = 0 := Nat.lt_one_iff.mp (j 0).isLt
    show (j 1).val = (j 0).val * 5 + (j 1).val
    omega)

variable (m : (ℓ : Loc nD τ sig) → Buf (Elt Ideal) ℓ) (ρ : Dev nD → PrngReg) (c : Dev nD)

/-! ## Buffers the first region does not write, at its exit -/

/-- The sources' row of the edge list. -/
theorem exit0_src : Gen.W2 (F := Ideal) m ρ c (Proc.devRef .tc main_v1) = val_main_v1 (F := Ideal) (m ((c : Thread nD τ).loc main_arg1)) :=
  (Gen.W2_of_ne m ρ c main_v1 (by decide)).trans (by dsimp only [Gen.W1, Gen.hostOps0]; after_results_simp <;> rfl)

/-- The destinations' row of the edge list. -/
theorem exit0_dst : Gen.W2 (F := Ideal) m ρ c (Proc.devRef .tc main_v3) = val_main_v3 (F := Ideal) (m ((c : Thread nD τ).loc main_arg1)) :=
  (Gen.W2_of_ne m ρ c main_v3 (by decide)).trans (by dsimp only [Gen.W1, Gen.hostOps0]; after_results_simp <;> rfl)

/-- The reciprocal of the clamped in-degree. -/
theorem exit0_cinv : (Gen.W2 (F := Ideal) m ρ c (Proc.devRef .tc main_v11) : FVec Ideal S50000 .f32)
    = Host.divf (F := Ideal) (broadcastInDim S50000 ![] bcast_S_S50000 (constant S_ .f32 0x3F800000#32)) (val_main_v19 (F := Ideal) (m ((c : Thread nD τ).loc main_arg1))) :=
  (Gen.W2_of_ne m ρ c main_v11 (by decide)).trans (by dsimp only [Gen.W1, Gen.hostOps0]; after_results_simp <;> rfl)

theorem exit0_arg5 : Gen.W2 (F := Ideal) m ρ c (Proc.devRef .tc main_arg5) = (m ((c : Thread nD τ).loc main_arg5)) :=
  (Gen.W2_of_ne m ρ c main_arg5 (by decide)).trans (by dsimp only [Gen.W1, Gen.hostOps0]; after_results_simp <;> rfl)
theorem exit0_arg6 : Gen.W2 (F := Ideal) m ρ c (Proc.devRef .tc main_arg6) = (m ((c : Thread nD τ).loc main_arg6)) :=
  (Gen.W2_of_ne m ρ c main_arg6 (by decide)).trans (by dsimp only [Gen.W1, Gen.hostOps0]; after_results_simp <;> rfl)
theorem exit0_arg7 : Gen.W2 (F := Ideal) m ρ c (Proc.devRef .tc main_arg7) = (m ((c : Thread nD τ).loc main_arg7)) :=
  (Gen.W2_of_ne m ρ c main_arg7 (by decide)).trans (by dsimp only [Gen.W1, Gen.hostOps0]; after_results_simp <;> rfl)

/-! ## The second region's input arrays at its entry -/

section Entry
variable (hH : Gen.W2 (F := Ideal) m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
include hH

/-- The mean's array: the neighbour sum of the hidden layer's rows times the reciprocal clamped in-degree. -/
theorem entry1_mean :
    Gen.V3 (F := Ideal) m ρ c main_v41
      = fun j => val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j
          * Ideal.div Cert.Sage.oneW (val_main_v47 (F := Ideal) (m ((c : Thread nD τ).loc main_arg1)) (ix1 (j 0))) := by
  have e : (Gen.W3 (F := Ideal) m ρ c (Proc.devRef .tc main_v41) : FVec Ideal S50000x256 .f32)
      = mulf (F := Ideal) (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (broadcastInDim S50000x256 ![0, 1] bcast_S50000x1_S50000x256_0_1 (broadcastInDim S50000x1 ![0] bcast_S50000_S50000x1_0
            (Host.divf (broadcastInDim S50000 ![] bcast_S_S50000 (constant S_ .f32 0x3F800000#32))
              (val_main_v47 (F := Ideal) (m ((c : Thread nD τ).loc main_arg1)))))) := by
    dsimp only [Gen.W3, Gen.hostOps1]
    after_results_simp
    rw [exit0_src m ρ c, exit0_dst m ρ c, exit0_cinv m ρ c, hH]
    rfl
  show Gen.W3 (F := Ideal) m ρ c (Proc.devRef .tc main_v41) = _
  rw [e]
  funext j
  refine (mulf_apply _ _ j).trans (congrArg (_ * ·) ?_)
  refine (bcast_rows256 _ j).trans ?_
  refine (hostDivf_apply _ _ _).trans ?_
  rw [bcast_scalar_rows]
  rfl

/-- The hidden layer's array is what the first region wrote. -/
theorem entry1_h : Gen.V3 (F := Ideal) m ρ c main_v28 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show Gen.W3 (F := Ideal) m ρ c (Proc.devRef .tc main_v28) = _
  dsimp only [Gen.W3, Gen.hostOps1]
  after_results_simp
  exact hH

end Entry

/-- The neighbour weights' array is `W2l` transposed. -/
theorem entry1_wl : Gen.V3 (F := Ideal) m ρ c main_v42 = fun j => (m ((c : Thread nD τ).loc main_arg5)) (ix2 (j 1) (j 0)) := by
  show Gen.W3 (F := Ideal) m ρ c (Proc.devRef .tc main_v42) = _
  dsimp only [Gen.W3, Gen.hostOps1]
  after_results_simp
  rw [exit0_arg5 m ρ c]
  funext j
  exact transpose_w2 _ j

/-- The root weights' array is `W2r` transposed. -/
theorem entry1_wr : Gen.V3 (F := Ideal) m ρ c main_v43 = fun j => (m ((c : Thread nD τ).loc main_arg7)) (ix2 (j 1) (j 0)) := by
  show Gen.W3 (F := Ideal) m ρ c (Proc.devRef .tc main_v43) = _
  dsimp only [Gen.W3, Gen.hostOps1]
  after_results_simp
  rw [exit0_arg7 m ρ c]
  funext j
  exact transpose_w2 _ j

/-- The bias row's array is `b2l` as a one-row matrix. -/
theorem entry1_b : Gen.V3 (F := Ideal) m ρ c main_v44 = fun j => (m ((c : Thread nD τ).loc main_arg6)) (ix1 (j 1)) := by
  show Gen.W3 (F := Ideal) m ρ c (Proc.devRef .tc main_v44) = _
  dsimp only [Gen.W3, Gen.hostOps1]
  after_results_simp
  rw [exit0_arg6 m ρ c]
  funext j
  exact reshape_b2 _ j

/-! ## The result -/

/-- At the last boundary the result array is the reference's result `val_main_v59` of the arguments. -/
theorem out_eq
    (hH : Gen.W2 (F := Ideal) m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hreg : (Gen.dat1 (F := Ideal) (Gen.V3 m ρ) c).arrAt 5 cfg1.N
        = Cert.Sage.layerK 50000 256 5 (Gen.V3 m ρ c (Pipeline.arrRef spec1 0)) (Gen.V3 m ρ c (Pipeline.arrRef spec1 1))
            (Gen.V3 m ρ c (Pipeline.arrRef spec1 2)) (Gen.V3 m ρ c (Pipeline.arrRef spec1 3)) (Gen.V3 m ρ c (Pipeline.arrRef spec1 4)))
    (href : val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        = Cert.Sage.layerR 50000 256 5 (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v47 (F := Ideal) (m ((c : Thread nD τ).loc main_arg1)))
            (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)))
    (hcnt : ∀ r, val_main_v47 (F := Ideal) (m ((c : Thread nD τ).loc main_arg1)) r ≠ 0) :
    Gen.W4 (F := Ideal) m ρ c (Proc.devRef .tc main_v45) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Gen.W4_arr m ρ c 5).trans (hreg.trans ?_)
  refine (layerK_congr (entry1_mean m ρ c hH) (entry1_h m ρ c hH) (entry1_wl m ρ c) (entry1_wr m ρ c)
    (entry1_b m ρ c)).trans ?_
  rw [href]
  exact Cert.Sage.layerK_eq_layerR 50000 256 5 _ _ _ _ _ _ hcnt

end Cert.KernelIdeal.Sage

end
-- ==== Proof.Payload0.lean ====
/-
  The first layer's block arithmetic, read at one entry.

  One grid point of the first layer holds a block of 2000 rows of the neighbour means and of the node features
  (each 2000 x 128), the two whole weight matrices (128 x 256) and the bias row (1 x 256). What it stores is, at
  row `p` and column `q` of the block,
      max ((Σ_k mean(p,k)·wl(k,q) + Σ_k x(p,k)·wr(k,q)) + b(0,q)) 0.
  On the extended reals the rounding to bf16 in front of the two products is the identity, each product into a zero
  accumulator is the plain sum over the one contracted axis, a shape cast to the same shape is the identity, and the
  bias row is repeated along the rows.
-/
import proofs.«123070_j77180562309272_1_alg».proof.Proof.Gen.KernelIdeal.Skeleton
import proofs.«123070_j77180562309272_1_alg».proof.Proof.Spec
import Idealize.ShloMosaic.Lib.Pipeline.Value

noncomputable section

open scoped BigOperators
open Idealize.ShloMosaic Idealize.ShloMosaic.ValueIdx

namespace Cert.KernelIdeal.Sage

open Cert.KernelIdeal Cert.KernelIdeal.Gen

/-- The product's operand indices, one coordinate at a time: at output entry `j` and contraction position `k` the left
    operand is read at `(j 0, k)` and the right one at `(k, j 1)`. -/
theorem dot0_lhs_row (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem dot0_lhs_col (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single rfl j k
theorem dot0_rhs_row (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single rfl j k
theorem dot0_rhs_col (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block product into a zero accumulator, at entry `(p, q)`: the sum over the 128 contracted positions of the
    operands' products. -/
theorem matmul0_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q)
      ((contrEquiv1 dot_S2000x128_S128x256_S2000x256_1_0_0_1_n_n 128 rfl rfl).symm k) = ix2 p k :=
    funext fun a => Fin.ext (by
      match a with
      | ⟨0, _⟩ => exact dot0_lhs_row _ _
      | ⟨1, _⟩ => exact (dot0_lhs_col _ _).trans hk)
  have er : dot_S2000x128_S128x256_S2000x256_1_0_0_1_n_n.rhsIdx (ix2 p q)
      ((contrEquiv1 dot_S2000x128_S128x256_S2000x256_1_0_0_1_n_n 128 rfl rfl).symm k) = ix2 k q :=
    funext fun a => Fin.ext (by
      match a with
      | ⟨0, _⟩ => exact (dot0_rhs_row _ _).trans hk
      | ⟨1, _⟩ => exact dot0_rhs_col _ _)
  rw [el, er]

/-- The bias row repeated along the 2000 rows, at entry `(p, q)`, is the row's entry `q`. -/
theorem bias0_apply (b : Vec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- WHAT ONE GRID POINT OF THE FIRST LAYER STORES, at row `p` and column `q` of its block. -/
theorem k0_pay1_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max ((∑ k : Fin 128, x0 (ix2 p k) * x2 (ix2 k q) + ∑ k : Fin 128, x1 (ix2 p k) * x3 (ix2 k q))
          + x4 (ix2 (0 : Fin 1) q)) Cert.Sage.zeroW := by
  unfold k0_pay1
  simp only [shapeCast_self]
  refine congrArg₂ max (congrArg₂ (· + ·) (congrArg₂ (· + ·) ?_ ?_) ?_) rfl
  · exact matmul0_apply _ _ p q
  · exact matmul0_apply _ _ p q
  · exact bias0_apply x4 p q

end Cert.KernelIdeal.Sage

end
-- ==== Proof.Cover0.lean ====
/-
  The first layer's grid, as arithmetic: which rows each of the 25 grid points holds, and that the 25 row blocks of
  the output fill its 50000 rows.

  Point `t` takes row block `t` (2000 rows) of the neighbour means, of the node features and of the output; the
  weight matrices and the bias row are taken whole at every point. Row `r` of the output lies in block `r / 2000`.
-/
import proofs.«123070_j77180562309272_1_alg».proof.Proof.Gen.KernelIdeal.Points
import Idealize.ShloMosaic.Lib.Pipeline.Value

noncomputable section

open Idealize.ShloMosaic Idealize.ShloMosaic.TcCoe Idealize.SL.Sem

namespace Cert.KernelIdeal.Sage

open Cert.KernelIdeal Cert.KernelIdeal.Gen

/-- The zero offsets of a load or store of a whole staging buffer. -/
theorem zero_offsets : (![0, 0] : Fin 2 → Nat) = fun _ => 0 := funext fun a => by fin_cases a <;> rfl

/-- The printed index maps, decided over the 25 grid points: the two row-block windows move with the output's row
    block, every other block index is zero, and the output's row-block index stays below 25. -/
theorem index_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every row block of the output is some grid point's. -/
theorem index_onto0 : ∀ b : Fin 25, ∃ t : Fin cfg0.N, win0_5.index t = ![b.val, 0] :=
  (by decide +kernel : ∀ b : Fin 25, ∃ t : Fin grid0.N, win0_5.index t = ![b.val, 0])

/-- An index of the output array is in point `t`'s block iff each coordinate is in the block's range on its axis. -/
theorem mem_block0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v28).slice (win0_5.rect t)).set ↔ _
  rw [View.set_slice_whole, Rect.mem_set_unit]
  exact Iff.rfl

/-- Every index of the output array is in some writing point's block: row `r` is in block `r / 2000`. -/
theorem covered0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := index_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

end Cert.KernelIdeal.Sage

end
-- ==== Proof.Region0.lean ====
/-
  The first layer's output array after its region: one whole-array function of the five arrays the region found.

  The region walks 25 grid points. Point `t` holds rows `2000·t … 2000·t + 1999` of the neighbour means and of the
  node features, the two whole weight matrices and the bias row, and writes back rows `2000·t … 2000·t + 1999` of the
  output. Entry `(p, q)` of what it writes depends only on row `p` of the two row blocks, column `q` of the two
  weight matrices and entry `q` of the bias, so it is entry `(2000·t + p, q)` of the layer applied to the whole
  arrays. The 25 row blocks fill the 50000 rows, so the array ends holding the layer everywhere.
-/
import proofs.«123070_j77180562309272_1_alg».proof.Proof.Gen.KernelIdeal.Frame
import proofs.«123070_j77180562309272_1_alg».proof.Proof.Payload0
import proofs.«123070_j77180562309272_1_alg».proof.Proof.Cover0
import Idealize.ShloMosaic.Lib.Pipeline.Value

noncomputable section

open scoped BigOperators
open Idealize.ShloMosaic Idealize.ShloMosaic.TcCoe Idealize.SL.Sem Idealize.ShloMosaic.ValueIdx

namespace Cert.KernelIdeal.Sage

open Cert.KernelIdeal Cert.KernelIdeal.Gen

/-- An entry `(p, q)` of a block's payload is the layer's entry `(r, s)` of the whole arrays, as soon as row `p` of the
    two row blocks is row `r` of the arrays, column `q` of the weight blocks is column `s` of the weight arrays, and
    entry `q` of the bias block is entry `s` of the bias array. -/
theorem layer0_of_blocks (A0 A1 : S50000x128.Idx → EReal) (A2 A3 : S128x256.Idx → EReal) (A4 : S1x256.Idx → EReal)
    (x0 x1 : Vec Ideal S2000x128 .f32) (x2 x3 : Vec Ideal S128x256 .f32) (x4 : Vec Ideal S1x256 .f32)
    (p : Fin 2000) (q : Fin 256) (r : Fin 50000) (s : Fin 256)
    (h0 : ∀ k : Fin 128, x0 (ix2 p k) = A0 (ix2 r k))
    (h1 : ∀ k : Fin 128, x1 (ix2 p k) = A1 (ix2 r k))
    (h2 : ∀ k : Fin 128, x2 (ix2 k q) = A2 (ix2 k s))
    (h3 : ∀ k : Fin 128, x3 (ix2 k q) = A3 (ix2 k s))
    (h4 : x4 (ix2 (0 : Fin 1) q) = A4 (ix2 (0 : Fin 1) s)) :
    k0_pay1 (F := Ideal) x0 x1 x2 x3 x4 (ix2 p q) = Cert.Sage.layerK 50000 128 256 A0 A1 A2 A3 A4 (ix2 r s) := by
  rw [k0_pay1_apply]
  unfold Cert.Sage.layerK
  simp only [h0, h1, h2, h3, h4]

/-! ## The five input blocks of a grid point, read where the output's block says -/

/-- Row `p` of the neighbour means' block at point `t` is row `2000·(the output's row block) + p` of the array. -/
theorem means0_read (V : (c : Dev nD) → (b : Ref sig .tc) → Buf (Elt Ideal) ((c : Thread nD τ).loc b)) (c : Dev nD)
    (t : Fin cfg0.N) (p : Fin 2000) (k : Fin 128) (r : Fin 50000)
    (hr : r.val = win0_5.index t (0 : Fin 2) * 2000 + p.val) :
    iblk0 V c 0 t (ix2 p k) = V c (Pipeline.arrRef spec0 0) (ix2 r k) := by
  obtain ⟨e0, e1, -⟩ := index_facts0 t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The same for the node features' block. -/
theorem feats0_read (V : (c : Dev nD) → (b : Ref sig .tc) → Buf (Elt Ideal) ((c : Thread nD τ).loc b)) (c : Dev nD)
    (t : Fin cfg0.N) (p : Fin 2000) (k : Fin 128) (r : Fin 50000)
    (hr : r.val = win0_5.index t (0 : Fin 2) * 2000 + p.val) :
    iblk0 V c 1 t (ix2 p k) = V c (Pipeline.arrRef spec0 1) (ix2 r k) := by
  obtain ⟨-, -, e2, e3, -⟩ := index_facts0 t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- The first weight matrix is taken whole at every point. -/
theorem wl0_read (V : (c : Dev nD) → (b : Ref sig .tc) → Buf (Elt Ideal) ((c : Thread nD τ).loc b)) (c : Dev nD)
    (t : Fin cfg0.N) (k : Fin 128) (q : Fin 256) :
    iblk0 V c 2 t (ix2 k q) = V c (Pipeline.arrRef spec0 2) (ix2 k q) := by
  obtain ⟨-, -, -, -, e4, e5, -⟩ := index_facts0 t
  show V c (Pipeline.arrRef spec0 2) (((cfg0.win 2).blk t).view.emb (ix2 k q)) = _
  refine congrArg (V c (Pipeline.arrRef spec0 2)) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- So is the second. -/
theorem wr0_read (V : (c : Dev nD) → (b : Ref sig .tc) → Buf (Elt Ideal) ((c : Thread nD τ).loc b)) (c : Dev nD)
    (t : Fin cfg0.N) (k : Fin 128) (q : Fin 256) :
    iblk0 V c 3 t (ix2 k q) = V c (Pipeline.arrRef spec0 3) (ix2 k q) := by
  obtain ⟨-, -, -, -, -, -, e6, e7, -⟩ := index_facts0 t
  show V c (Pipeline.arrRef spec0 3) (((cfg0.win 3).blk t).view.emb (ix2 k q)) = _
  refine congrArg (V c (Pipeline.arrRef spec0 3)) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- So is the bias row. -/
theorem bias0_read (V : (c : Dev nD) → (b : Ref sig .tc) → Buf (Elt Ideal) ((c : Thread nD τ).loc b)) (c : Dev nD)
    (t : Fin cfg0.N) (q : Fin 256) :
    iblk0 V c 4 t (ix2 (0 : Fin 1) q) = V c (Pipeline.arrRef spec0 4) (ix2 (0 : Fin 1) q) := by
  obtain ⟨-, -, -, -, -, -, -, -, e8, e9, -⟩ := index_facts0 t
  show V c (Pipeline.arrRef spec0 4) (((cfg0.win 4).blk t).view.emb (ix2 (0 : Fin 1) q)) = _
  refine congrArg (V c (Pipeline.arrRef spec0 4)) (funext fun a => Fin.ext ?_)
  match a with
  | ⟨0, _⟩ =>
    show win0_4.index t (0 : Fin 2) * S1x256.size (0 : Fin 2) + 1 * (0 : Fin 1).val = (0 : Fin 1).val
    rw [e8, Nat.zero_mul, Nat.zero_add, Nat.one_mul]
  | ⟨1, _⟩ => show win0_4.index t (1 : Fin 2) * 256 + 1 * q.val = q.val; omega

/-! ## What a point writes back, and the array -/

/-- An element `(p, q)` of the output's block at point `t` sits in the array at row `2000·(row block) + p`, column `q`. -/
theorem out0_emb (t : Fin cfg0.N) (p : Fin 2000) (q : Fin 256) (r : Fin 50000)
    (hr : r.val = win0_5.index t (0 : Fin 2) * 2000 + p.val) :
    ((cfg0.win 5).blk t).view.emb (ix2 p q) = ix2 r q := by
  obtain ⟨-, -, -, -, -, -, -, -, -, -, -, e11⟩ := index_facts0 t
  funext a; apply Fin.ext
  match a with
  | ⟨0, _⟩ => show win0_5.index t (0 : Fin 2) * 2000 + 1 * p.val = r.val; omega
  | ⟨1, _⟩ => show win0_5.index t (1 : Fin 2) * 256 + 1 * q.val = q.val; omega

/-- WHAT POINT `t` WRITES BACK is block `t` of the layer applied to the arrays as the region found them. -/
theorem flushed0_eq (V : (c : Dev nD) → (b : Ref sig .tc) → Buf (Elt Ideal) ((c : Thread nD τ).loc b)) (c : Dev nD)
    (t : Fin cfg0.N) :
    (Gen.dat0 (F := Ideal) V c).flushed 5 t
      = ((cfg0.win 5).blk t).view.read (Elt Ideal)
          (Cert.Sage.layerK 50000 128 256 (V c (Pipeline.arrRef spec0 0)) (V c (Pipeline.arrRef spec0 1))
            (V c (Pipeline.arrRef spec0 2)) (V c (Pipeline.arrRef spec0 3)) (V c (Pipeline.arrRef spec0 4))) := by
  show (cfg0.win 5).cut (grid0.coords t) ((Gen.dat0 (F := Ideal) V c).after 5 t) = _
  rw [after0_5]
  unfold out0_5
  rw [View.canon_unit_zero zero_offsets]
  simp only [View.ld_unit_zero (S := S2000x128) zero_offsets, View.ld_unit_zero (S := S128x256) zero_offsets,
    View.ld_unit_zero (S := S1x256) zero_offsets]
  have e10 : win0_5.index t (0 : Fin 2) ≤ 24 := (index_facts0 t).2.2.2.2.2.2.2.2.2.2.1
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.layerK 50000 128 256 (V c (Pipeline.arrRef spec0 0)) (V c (Pipeline.arrRef spec0 1))
        (V c (Pipeline.arrRef spec0 2)) (V c (Pipeline.arrRef spec0 3)) (V c (Pipeline.arrRef spec0 4))
        (((cfg0.win 5).blk t).view.emb (ix2 p q))
  have hp : p.val < 2000 := p.isLt
  rw [out0_emb t p q ⟨win0_5.index t (0 : Fin 2) * 2000 + p.val, by omega⟩ rfl]
  exact layer0_of_blocks (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) p q
    ⟨win0_5.index t (0 : Fin 2) * 2000 + p.val, by omega⟩ q
    (fun k => means0_read V c t p k _ rfl) (fun k => feats0_read V c t p k _ rfl)
    (fun k => wl0_read V c t k q) (fun k => wr0_read V c t k q) (bias0_read V c t q)

/-- THE OUTPUT ARRAY after the first region is the layer applied to the five arrays as the region found them. -/
theorem region0_array (V : (c : Dev nD) → (b : Ref sig .tc) → Buf (Elt Ideal) ((c : Thread nD τ).loc b)) (c : Dev nD) :
    (Gen.dat0 (F := Ideal) V c).arrAt 5 cfg0.N
      = Cert.Sage.layerK 50000 128 256 (V c (Pipeline.arrRef spec0 0)) (V c (Pipeline.arrRef spec0 1))
          (V c (Pipeline.arrRef spec0 2)) (V c (Pipeline.arrRef spec0 3)) (V c (Pipeline.arrRef spec0 4)) :=
  (Gen.dat0 (F := Ideal) V c).arrAt_eq_of_cover 5 _ (fun t _ => flushed0_eq V c t) covered0

end Cert.KernelIdeal.Sage

end
-- ==== Proof.Payload1.lean ====
/-
  The second layer's block arithmetic, read at one entry.

  One grid point of the second layer holds a block of 2000 rows of the neighbour means and of the hidden features
  (each 2000 x 256), the two whole weight matrices (256 x 5) and the bias row (1 x 5). What it stores is, at
  row `p` and column `q` of the block,
      max ((Σ_k mean(p,k)·wl(k,q) + Σ_k x(p,k)·wr(k,q)) + b(0,q)) 0.
  On the extended reals the rounding to bf16 in front of the two products is the identity, each product into a zero
  accumulator is the plain sum over the one contracted axis, a shape cast to the same shape is the identity, and the
  bias row is repeated along the rows.
-/
import proofs.«123070_j77180562309272_1_alg».proof.Proof.Gen.KernelIdeal.Skeleton
import proofs.«123070_j77180562309272_1_alg».proof.Proof.Spec
import Idealize.ShloMosaic.Lib.Pipeline.Value

noncomputable section

open scoped BigOperators
open Idealize.ShloMosaic Idealize.ShloMosaic.ValueIdx

namespace Cert.KernelIdeal.Sage

open Cert.KernelIdeal Cert.KernelIdeal.Gen

/-- The product's operand indices, one coordinate at a time: at output entry `j` and contraction position `k` the left
    operand is read at `(j 0, k)` and the right one at `(k, j 1)`. -/
theorem dot1_lhs_row (j : S2000x5.Idx) (k : dot_S2000x256_S256x5_S2000x5_1_0_0_1_n_n.contr.Idx) :
    (dot_S2000x256_S256x5_S2000x5_1_0_0_1_n_n.lhsIdx j k 0).val = (j 0).val := by
  unfold DotDims.lhsIdx
  rw [dif_neg (show ¬(0 : Fin S2000x256.rank) ∈ dot_S2000x256_S256x5_S2000x5_1_0_0_1_n_n.lhsBatch by decide),
    dif_pos (show (0 : Fin S2000x256.rank) ∈ dot_S2000x256_S256x5_S2000x5_1_0_0_1_n_n.lhsNonContracting by decide)]
  rfl
theorem dot1_lhs_col (j : S2000x5.Idx) (k : dot_S2000x256_S256x5_S2000x5_1_0_0_1_n_n.contr.Idx) :
    (dot_S2000x256_S256x5_S2000x5_1_0_0_1_n_n.lhsIdx j k 1).val = (k ⟨0, by decide⟩).val :=
  dot_S2000x256_S256x5_S2000x5_1_0_0_1_n_n.lhsIdx_val_of_single rfl j k
theorem dot1_rhs_row (j : S2000x5.Idx) (k : dot_S2000x256_S256x5_S2000x5_1_0_0_1_n_n.contr.Idx) :
    (dot_S2000x256_S256x5_S2000x5_1_0_0_1_n_n.rhsIdx j k 0).val = (k ⟨0, by decide⟩).val :=
  dot_S2000x256_S256x5_S2000x5_1_0_0_1_n_n.rhsIdx_val_of_single rfl j k
theorem dot1_rhs_col (j : S2000x5.Idx) (k : dot_S2000x256_S256x5_S2000x5_1_0_0_1_n_n.contr.Idx) :
    (dot_S2000x256_S256x5_S2000x5_1_0_0_1_n_n.rhsIdx j k 1).val = (j 1).val := by
  unfold DotDims.rhsIdx
  rw [dif_neg (show ¬(1 : Fin S256x5.rank) ∈ dot_S2000x256_S256x5_S2000x5_1_0_0_1_n_n.rhsBatch by decide),
    dif_pos (show (1 : Fin S256x5.rank) ∈ dot_S2000x256_S256x5_S2000x5_1_0_0_1_n_n.rhsNonContracting by decide)]
  rfl

/-- The block product into a zero accumulator, at entry `(p, q)`: the sum over the 256 contracted positions of the
    operands' products. -/
theorem matmul1_apply (l : FVec Ideal S2000x256 .bf16) (r : FVec Ideal S256x5 .bf16) (p : Fin 2000) (q : Fin 5) :
    matmul dot_S2000x256_S256x5_S2000x5_1_0_0_1_n_n none l r (constant S2000x5 .f32 0x00000000#32) (ix2 p q)
      = ∑ k : Fin 256, l (ix2 p k) * r (ix2 k q) := by
  simp only [matmul]
  rw [Ideal.matmul_constant_zero_apply,
    ← Equiv.sum_comp (contrEquiv1 dot_S2000x256_S256x5_S2000x5_1_0_0_1_n_n 256 rfl rfl).symm]
  refine Finset.sum_congr rfl fun k _ => ?_
  have hk := contrEquiv1_symm_val dot_S2000x256_S256x5_S2000x5_1_0_0_1_n_n 256 rfl rfl k
  have el : dot_S2000x256_S256x5_S2000x5_1_0_0_1_n_n.lhsIdx (ix2 p q)
      ((contrEquiv1 dot_S2000x256_S256x5_S2000x5_1_0_0_1_n_n 256 rfl rfl).symm k) = ix2 p k :=
    funext fun a => Fin.ext (by
      match a with
      | ⟨0, _⟩ => exact dot1_lhs_row _ _
      | ⟨1, _⟩ => exact (dot1_lhs_col _ _).trans hk)
  have er : dot_S2000x256_S256x5_S2000x5_1_0_0_1_n_n.rhsIdx (ix2 p q)
      ((contrEquiv1 dot_S2000x256_S256x5_S2000x5_1_0_0_1_n_n 256 rfl rfl).symm k) = ix2 k q :=
    funext fun a => Fin.ext (by
      match a with
      | ⟨0, _⟩ => exact (dot1_rhs_row _ _).trans hk
      | ⟨1, _⟩ => exact dot1_rhs_col _ _)
  rw [el, er]

/-- The bias row repeated along the 2000 rows, at entry `(p, q)`, is the row's entry `q`. -/
theorem bias1_apply (b : Vec Ideal S1x5 .f32) (p : Fin 2000) (q : Fin 5) :
    broadcastTo S2000x5 b broadcasts_S1x5_S2000x5 (ix2 p q) = b (ix2 (0 : Fin 1) q) :=
  broadcastTo_apply b broadcasts_S1x5_S2000x5 (ix2 p q) (ix2 (0 : Fin 1) q) (fun a => match a with
    | ⟨0, _⟩ => by show (0 : Nat) = if (1 : Nat) = 1 then 0 else _; rw [if_pos rfl]
    | ⟨1, _⟩ => by show q.val = if (5 : Nat) = 1 then 0 else q.val; rw [if_neg (by decide)])

/-- WHAT ONE GRID POINT OF THE SECOND LAYER STORES, at row `p` and column `q` of its block. -/
theorem k1_pay1_apply (x0 x1 : Vec Ideal S2000x256 .f32) (x2 x3 : Vec Ideal S256x5 .f32) (x4 : Vec Ideal S1x5 .f32)
    (p : Fin 2000) (q : Fin 5) :
    k1_pay1 (F := Ideal) x0 x1 x2 x3 x4 (ix2 p q)
      = max ((∑ k : Fin 256, x0 (ix2 p k) * x2 (ix2 k q) + ∑ k : Fin 256, x1 (ix2 p k) * x3 (ix2 k q))
          + x4 (ix2 (0 : Fin 1) q)) Cert.Sage.zeroW := by
  unfold k1_pay1
  simp only [shapeCast_self]
  refine congrArg₂ max (congrArg₂ (· + ·) (congrArg₂ (· + ·) ?_ ?_) ?_) rfl
  · exact matmul1_apply _ _ p q
  · exact matmul1_apply _ _ p q
  · exact bias1_apply x4 p q

end Cert.KernelIdeal.Sage

end
-- ==== Proof.Cover1.lean ====
/-
  The second layer's grid, as arithmetic: which rows each of the 25 grid points holds, and that the 25 row blocks of
  the output fill its 50000 rows.

  Point `t` takes row block `t` (2000 rows) of the neighbour means, of the hidden features and of the output; the
  weight matrices and the bias row are taken whole at every point. Row `r` of the output lies in block `r / 2000`.
-/
import proofs.«123070_j77180562309272_1_alg».proof.Proof.Gen.KernelIdeal.Points
import proofs.«123070_j77180562309272_1_alg».proof.Proof.Cover0
import Idealize.ShloMosaic.Lib.Pipeline.Value

noncomputable section

open Idealize.ShloMosaic Idealize.ShloMosaic.TcCoe Idealize.SL.Sem

namespace Cert.KernelIdeal.Sage

open Cert.KernelIdeal Cert.KernelIdeal.Gen

/-- The printed index maps, decided over the 25 grid points: the two row-block windows move with the output's row
    block, every other block index is zero, and the output's row-block index stays below 25. -/
theorem index_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every row block of the output is some grid point's. -/
theorem index_onto1 : ∀ b : Fin 25, ∃ t : Fin cfg1.N, win1_5.index t = ![b.val, 0] :=
  (by decide +kernel : ∀ b : Fin 25, ∃ t : Fin grid1.N, win1_5.index t = ![b.val, 0])

/-- An index of the output array is in point `t`'s block iff each coordinate is in the block's range on its axis. -/
theorem mem_block1 (t : Fin cfg1.N) (i : S50000x5.Idx) :
    i ∈ ((cfg1.win 5).blk t).view.set ↔ ∀ a : Fin 2, win1_5.index t a * S2000x5.size a ≤ (i a).val
      ∧ (i a).val < win1_5.index t a * S2000x5.size a + S2000x5.size a := by
  show i ∈ ((View.whole main_v45).slice (win1_5.rect t)).set ↔ _
  rw [View.set_slice_whole, Rect.mem_set_unit]
  exact Iff.rfl

/-- Every index of the output array is in some writing point's block: row `r` is in block `r / 2000`. -/
theorem covered1 (i : S50000x5.Idx) :
    ∃ t : Fin cfg1.N, (cfg1.win 5).flush t = true ∧ i ∈ ((cfg1.win 5).blk t).view.set := by
  have hi0 : (i 0).val < 50000 := (i 0).isLt
  have hi1 : (i 1).val < 5 := (i 1).isLt
  obtain ⟨t, ht⟩ := index_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 5 ≤ (i 1).val ∧ (i 1).val < win1_5.index t (1 : Fin 2) * 5 + 5; omega

end Cert.KernelIdeal.Sage

end
-- ==== Proof.Region1.lean ====
/-
  The second layer's output array after its region: one whole-array function of the five arrays the region found.

  The region walks 25 grid points. Point `t` holds rows `2000·t … 2000·t + 1999` of the neighbour means and of the
  hidden features, the two whole weight matrices and the bias row, and writes back rows `2000·t … 2000·t + 1999` of the
  output. Entry `(p, q)` of what it writes depends only on row `p` of the two row blocks, column `q` of the two
  weight matrices and entry `q` of the bias, so it is entry `(2000·t + p, q)` of the layer applied to the whole
  arrays. The 25 row blocks fill the 50000 rows, so the array ends holding the layer everywhere.
-/
import proofs.«123070_j77180562309272_1_alg».proof.Proof.Gen.KernelIdeal.Frame
import proofs.«123070_j77180562309272_1_alg».proof.Proof.Payload1
import proofs.«123070_j77180562309272_1_alg».proof.Proof.Cover1
import Idealize.ShloMosaic.Lib.Pipeline.Value

noncomputable section

open scoped BigOperators
open Idealize.ShloMosaic Idealize.ShloMosaic.TcCoe Idealize.SL.Sem Idealize.ShloMosaic.ValueIdx

namespace Cert.KernelIdeal.Sage

open Cert.KernelIdeal Cert.KernelIdeal.Gen

/-- An entry `(p, q)` of a block's payload is the layer's entry `(r, s)` of the whole arrays, as soon as row `p` of the
    two row blocks is row `r` of the arrays, column `q` of the weight blocks is column `s` of the weight arrays, and
    entry `q` of the bias block is entry `s` of the bias array. -/
theorem layer1_of_blocks (A0 A1 : S50000x256.Idx → EReal) (A2 A3 : S256x5.Idx → EReal) (A4 : S1x5.Idx → EReal)
    (x0 x1 : Vec Ideal S2000x256 .f32) (x2 x3 : Vec Ideal S256x5 .f32) (x4 : Vec Ideal S1x5 .f32)
    (p : Fin 2000) (q : Fin 5) (r : Fin 50000) (s : Fin 5)
    (h0 : ∀ k : Fin 256, x0 (ix2 p k) = A0 (ix2 r k))
    (h1 : ∀ k : Fin 256, x1 (ix2 p k) = A1 (ix2 r k))
    (h2 : ∀ k : Fin 256, x2 (ix2 k q) = A2 (ix2 k s))
    (h3 : ∀ k : Fin 256, x3 (ix2 k q) = A3 (ix2 k s))
    (h4 : x4 (ix2 (0 : Fin 1) q) = A4 (ix2 (0 : Fin 1) s)) :
    k1_pay1 (F := Ideal) x0 x1 x2 x3 x4 (ix2 p q) = Cert.Sage.layerK 50000 256 5 A0 A1 A2 A3 A4 (ix2 r s) := by
  rw [k1_pay1_apply]
  unfold Cert.Sage.layerK
  simp only [h0, h1, h2, h3, h4]

/-! ## The five input blocks of a grid point, read where the output's block says -/

/-- Row `p` of the neighbour means' block at point `t` is row `2000·(the output's row block) + p` of the array. -/
theorem means1_read (V : (c : Dev nD) → (b : Ref sig .tc) → Buf (Elt Ideal) ((c : Thread nD τ).loc b)) (c : Dev nD)
    (t : Fin cfg1.N) (p : Fin 2000) (k : Fin 256) (r : Fin 50000)
    (hr : r.val = win1_5.index t (0 : Fin 2) * 2000 + p.val) :
    iblk1 V c 0 t (ix2 p k) = V c (Pipeline.arrRef spec1 0) (ix2 r k) := by
  obtain ⟨e0, e1, -⟩ := index_facts1 t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- The same for the hidden features' block. -/
theorem feats1_read (V : (c : Dev nD) → (b : Ref sig .tc) → Buf (Elt Ideal) ((c : Thread nD τ).loc b)) (c : Dev nD)
    (t : Fin cfg1.N) (p : Fin 2000) (k : Fin 256) (r : Fin 50000)
    (hr : r.val = win1_5.index t (0 : Fin 2) * 2000 + p.val) :
    iblk1 V c 1 t (ix2 p k) = V c (Pipeline.arrRef spec1 1) (ix2 r k) := by
  obtain ⟨-, -, e2, e3, -⟩ := index_facts1 t
  show V c (Pipeline.arrRef spec1 1) (((cfg1.win 1).blk t).view.emb (ix2 p k)) = _
  refine congrArg (V c (Pipeline.arrRef spec1 1)) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- The first weight matrix is taken whole at every point. -/
theorem wl1_read (V : (c : Dev nD) → (b : Ref sig .tc) → Buf (Elt Ideal) ((c : Thread nD τ).loc b)) (c : Dev nD)
    (t : Fin cfg1.N) (k : Fin 256) (q : Fin 5) :
    iblk1 V c 2 t (ix2 k q) = V c (Pipeline.arrRef spec1 2) (ix2 k q) := by
  obtain ⟨-, -, -, -, e4, e5, -⟩ := index_facts1 t
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 256 + 1 * k.val = k.val; omega
  | ⟨1, _⟩ => show win1_2.index t (1 : Fin 2) * 5 + 1 * q.val = q.val; omega

/-- So is the second. -/
theorem wr1_read (V : (c : Dev nD) → (b : Ref sig .tc) → Buf (Elt Ideal) ((c : Thread nD τ).loc b)) (c : Dev nD)
    (t : Fin cfg1.N) (k : Fin 256) (q : Fin 5) :
    iblk1 V c 3 t (ix2 k q) = V c (Pipeline.arrRef spec1 3) (ix2 k q) := by
  obtain ⟨-, -, -, -, -, -, e6, e7, -⟩ := index_facts1 t
  show V c (Pipeline.arrRef spec1 3) (((cfg1.win 3).blk t).view.emb (ix2 k q)) = _
  refine congrArg (V c (Pipeline.arrRef spec1 3)) (funext fun a => Fin.ext ?_)
  match a with
  | ⟨0, _⟩ => show win1_3.index t (0 : Fin 2) * 256 + 1 * k.val = k.val; omega
  | ⟨1, _⟩ => show win1_3.index t (1 : Fin 2) * 5 + 1 * q.val = q.val; omega

/-- So is the bias row. -/
theorem bias1_read (V : (c : Dev nD) → (b : Ref sig .tc) → Buf (Elt Ideal) ((c : Thread nD τ).loc b)) (c : Dev nD)
    (t : Fin cfg1.N) (q : Fin 5) :
    iblk1 V c 4 t (ix2 (0 : Fin 1) q) = V c (Pipeline.arrRef spec1 4) (ix2 (0 : Fin 1) q) := by
  obtain ⟨-, -, -, -, -, -, -, -, e8, e9, -⟩ := index_facts1 t
  show V c (Pipeline.arrRef spec1 4) (((cfg1.win 4).blk t).view.emb (ix2 (0 : Fin 1) q)) = _
  refine congrArg (V c (Pipeline.arrRef spec1 4)) (funext fun a => Fin.ext ?_)
  match a with
  | ⟨0, _⟩ =>
    show win1_4.index t (0 : Fin 2) * S1x5.size (0 : Fin 2) + 1 * (0 : Fin 1).val = (0 : Fin 1).val
    rw [e8, Nat.zero_mul, Nat.zero_add, Nat.one_mul]
  | ⟨1, _⟩ => show win1_4.index t (1 : Fin 2) * 5 + 1 * q.val = q.val; omega

/-! ## What a point writes back, and the array -/

/-- An element `(p, q)` of the output's block at point `t` sits in the array at row `2000·(row block) + p`, column `q`. -/
theorem out1_emb (t : Fin cfg1.N) (p : Fin 2000) (q : Fin 5) (r : Fin 50000)
    (hr : r.val = win1_5.index t (0 : Fin 2) * 2000 + p.val) :
    ((cfg1.win 5).blk t).view.emb (ix2 p q) = ix2 r q := by
  obtain ⟨-, -, -, -, -, -, -, -, -, -, -, e11⟩ := index_facts1 t
  funext a; apply Fin.ext
  match a with
  | ⟨0, _⟩ => show win1_5.index t (0 : Fin 2) * 2000 + 1 * p.val = r.val; omega
  | ⟨1, _⟩ => show win1_5.index t (1 : Fin 2) * 5 + 1 * q.val = q.val; omega

/-- WHAT POINT `t` WRITES BACK is block `t` of the layer applied to the arrays as the region found them. -/
theorem flushed1_eq (V : (c : Dev nD) → (b : Ref sig .tc) → Buf (Elt Ideal) ((c : Thread nD τ).loc b)) (c : Dev nD)
    (t : Fin cfg1.N) :
    (Gen.dat1 (F := Ideal) V c).flushed 5 t
      = ((cfg1.win 5).blk t).view.read (Elt Ideal)
          (Cert.Sage.layerK 50000 256 5 (V c (Pipeline.arrRef spec1 0)) (V c (Pipeline.arrRef spec1 1))
            (V c (Pipeline.arrRef spec1 2)) (V c (Pipeline.arrRef spec1 3)) (V c (Pipeline.arrRef spec1 4))) := by
  show (cfg1.win 5).cut (grid1.coords t) ((Gen.dat1 (F := Ideal) V c).after 5 t) = _
  rw [after1_5]
  unfold out1_5
  rw [View.canon_unit_zero zero_offsets]
  simp only [View.ld_unit_zero (S := S2000x256) zero_offsets, View.ld_unit_zero (S := S256x5) zero_offsets,
    View.ld_unit_zero (S := S1x5) zero_offsets]
  have e10 : win1_5.index t (0 : Fin 2) ≤ 24 := (index_facts1 t).2.2.2.2.2.2.2.2.2.2.1
  funext j
  obtain ⟨p, q, rfl⟩ : ∃ (p : Fin 2000) (q : Fin 5), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Sage.layerK 50000 256 5 (V c (Pipeline.arrRef spec1 0)) (V c (Pipeline.arrRef spec1 1))
        (V c (Pipeline.arrRef spec1 2)) (V c (Pipeline.arrRef spec1 3)) (V c (Pipeline.arrRef spec1 4))
        (((cfg1.win 5).blk t).view.emb (ix2 p q))
  have hp : p.val < 2000 := p.isLt
  rw [out1_emb t p q ⟨win1_5.index t (0 : Fin 2) * 2000 + p.val, by omega⟩ rfl]
  exact layer1_of_blocks (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) p q
    ⟨win1_5.index t (0 : Fin 2) * 2000 + p.val, by omega⟩ q
    (fun k => means1_read V c t p k _ rfl) (fun k => feats1_read V c t p k _ rfl)
    (fun k => wl1_read V c t k q) (fun k => wr1_read V c t k q) (bias1_read V c t q)

/-- THE OUTPUT ARRAY after the second region is the layer applied to the five arrays as the region found them. -/
theorem region1_array (V : (c : Dev nD) → (b : Ref sig .tc) → Buf (Elt Ideal) ((c : Thread nD τ).loc b)) (c : Dev nD) :
    (Gen.dat1 (F := Ideal) V c).arrAt 5 cfg1.N
      = Cert.Sage.layerK 50000 256 5 (V c (Pipeline.arrRef spec1 0)) (V c (Pipeline.arrRef spec1 1))
          (V c (Pipeline.arrRef spec1 2)) (V c (Pipeline.arrRef spec1 3)) (V c (Pipeline.arrRef spec1 4)) :=
  (Gen.dat1 (F := Ideal) V c).arrAt_eq_of_cover 5 _ (fun t _ => flushed1_eq V c t) covered1

end Cert.KernelIdeal.Sage

end
-- ==== Proof.RefLayer.lean ====
/-
  The reference program, read at an index: each of its two GraphSAGE layers is the reference arrangement `layerR` of the
  shared specification, as a function of the stages it is computed from.

  Layer 1 (the hidden features): the neighbour sum (a scatter-add of gathered rows of the input) and the clamped in-degree
  count are left as they are; everything downstream of them is pointwise arithmetic, two matrix products against
  transposed weights, two broadcasts of the count (to a column, then across the row), two broadcasts of the bias (to a
  row, then down the column) and a final maximum with a broadcast zero. Read at an index `(r, q)` this is
      max (((Σ_k (agg(r,k) / cnt r) · Wl(q,k)) + bl q) + Σ_k x(r,k) · Wr(q,k)) 0,
  which is `layerR` word for word once every composed index map is written with the index constructors:
  a transpose read at `(k, q)` reads the weight at `(q, k)`; the count broadcast read at `(r, k)` reads the count at `r`;
  the bias broadcast read at `(r, q)` reads the bias at `q`.
  Layer 2 (the output) is the same computation over the hidden features, with 256 in place of 128 and 5 in place of 256.

  The clamped count is `max (scattered count) 1`, so it is at least one and in particular never zero, whatever the
  scattered count is.
-/
import proofs.«123070_j77180562309272_1_alg».proof.Proof.Gen.ReferenceIdeal.Read
import proofs.«123070_j77180562309272_1_alg».proof.Proof.Spec

noncomputable section

open scoped BigOperators
open Idealize.ShloMosaic Idealize.ShloMosaic.TcCoe Idealize.SL.Sem Idealize.ShloMosaic.ValueIdx

namespace Cert.ReferenceIdeal.Sage

open Cert.ReferenceIdeal Cert.ReferenceIdeal.Gen Cert.ReferenceIdeal.Read

/-! ### Layer 1: the indices the reference's layout operations read, as the index constructors -/

theorem lidx24 (i : S50000x256.Idx) (k : Fin 128) : lidx_main_v24 i k = ix2 (n0 := 50000) (i 0) k :=
  funext fun a => Fin.ext (by match a with | ⟨0, _⟩ => rfl | ⟨1, _⟩ => rfl)
theorem ridx24 (i : S50000x256.Idx) (k : Fin 128) : idx_main_v23 (ridx_main_v24 i k) = ix2 (n0 := 256) (i 1) k :=
  funext fun a => Fin.ext (by match a with | ⟨0, _⟩ => rfl | ⟨1, _⟩ => rfl)
theorem cidx24 (i : S50000x256.Idx) (k : Fin 128) : idx_main_v20 (idx_main_v21 (lidx_main_v24 i k)) = ix1 (n := 50000) (i 0) :=
  funext fun a => Fin.ext (by match a with | ⟨0, _⟩ => rfl)
theorem bidx26 (i : S50000x256.Idx) : idx_main_v25 (idx_main_v26 i) = ix1 (n := 256) (i 1) :=
  funext fun a => Fin.ext (by match a with | ⟨0, _⟩ => rfl)
theorem lidx29 (i : S50000x256.Idx) (k : Fin 128) : lidx_main_v29 i k = ix2 (n0 := 50000) (i 0) k :=
  funext fun a => Fin.ext (by match a with | ⟨0, _⟩ => rfl | ⟨1, _⟩ => rfl)
theorem ridx29 (i : S50000x256.Idx) (k : Fin 128) : idx_main_v28 (ridx_main_v29 i k) = ix2 (n0 := 256) (i 1) k :=
  funext fun a => Fin.ext (by match a with | ⟨0, _⟩ => rfl | ⟨1, _⟩ => rfl)

/-- One term of the neighbour product: the scattered sum over the clamped count, times the untransposed weight. -/
theorem term24 (x0 : (⟨S50000x128, .f32⟩ : BufTy).Contents (Elt Ideal)) (x1 : (⟨S2x800000, .i32⟩ : BufTy).Contents (Elt Ideal)) (x2 : (⟨S256x128, .f32⟩ : BufTy).Contents (Elt Ideal))
    (i : S50000x256.Idx) (k : Fin 128) :
    val_main_v22 (F := Ideal) x0 x1 (lidx_main_v24 i k) * val_main_v23 (F := Ideal) x2 (ridx_main_v24 i k)
      = Ideal.div (val_main_v13 (F := Ideal) x0 x1 (ix2 (n0 := 50000) (i 0) k)) (val_main_v19 (F := Ideal) x1 (ix1 (n := 50000) (i 0)))
          * x2 (ix2 (n0 := 256) (i 1) k) := by
  rw [val_main_v22_apply, val_main_v21_apply, val_main_v20_apply, val_main_v23_apply, ridx24, cidx24, lidx24,
    Ideal.hostDivf_def]

/-- One term of the root product. -/
theorem term29 (x0 : (⟨S50000x128, .f32⟩ : BufTy).Contents (Elt Ideal)) (x4 : (⟨S256x128, .f32⟩ : BufTy).Contents (Elt Ideal))
    (i : S50000x256.Idx) (k : Fin 128) :
    x0 (lidx_main_v29 i k) * val_main_v28 (F := Ideal) x4 (ridx_main_v29 i k)
      = x0 (ix2 (n0 := 50000) (i 0) k) * x4 (ix2 (n0 := 256) (i 1) k) := by
  rw [val_main_v28_apply, ridx29, lidx29]

/-- The reference's hidden features are the reference-arrangement layer of the neighbour sum, the clamped count, the
    input and the first layer's three parameters. -/
theorem ref_hidden (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v31 (F := Ideal) x0 x1 x2 x3 x4 = Cert.Sage.layerR 50000 128 256 (val_main_v13 (F := Ideal) x0 x1) (val_main_v19 (F := Ideal) x1) x0 x2 x3 x4 := by
  funext i
  rw [val_main_v31_apply, val_main_call0_v0_apply, val_main_call0_cst_apply, val_main_v30_apply, val_main_v27_apply,
    val_main_v24_apply, val_main_v26_apply, val_main_v25_apply, val_main_v29_apply, bidx26,
    Finset.sum_congr rfl fun k _ => term24 x0 x1 x2 i k,
    Finset.sum_congr rfl fun k _ => term29 x0 x4 i k,
    Ideal.maximumf_def, Ideal.addf_def, Ideal.addf_def, Ideal.ofBits_def]
  unfold Cert.Sage.layerR
  rfl

/-! ### Layer 2: the same index maps at the second layer's sizes -/

theorem lidx52 (i : S50000x5.Idx) (k : Fin 256) : lidx_main_v52 i k = ix2 (n0 := 50000) (i 0) k :=
  funext fun a => Fin.ext (by match a with | ⟨0, _⟩ => rfl | ⟨1, _⟩ => rfl)
theorem ridx52 (i : S50000x5.Idx) (k : Fin 256) : idx_main_v51 (ridx_main_v52 i k) = ix2 (n0 := 5) (i 1) k :=
  funext fun a => Fin.ext (by match a with | ⟨0, _⟩ => rfl | ⟨1, _⟩ => rfl)
theorem cidx52 (i : S50000x5.Idx) (k : Fin 256) : idx_main_v48 (idx_main_v49 (lidx_main_v52 i k)) = ix1 (n := 50000) (i 0) :=
  funext fun a => Fin.ext (by match a with | ⟨0, _⟩ => rfl)
theorem bidx54 (i : S50000x5.Idx) : idx_main_v53 (idx_main_v54 i) = ix1 (n := 5) (i 1) :=
  funext fun a => Fin.ext (by match a with | ⟨0, _⟩ => rfl)
theorem lidx57 (i : S50000x5.Idx) (k : Fin 256) : lidx_main_v57 i k = ix2 (n0 := 50000) (i 0) k :=
  funext fun a => Fin.ext (by match a with | ⟨0, _⟩ => rfl | ⟨1, _⟩ => rfl)
theorem ridx57 (i : S50000x5.Idx) (k : Fin 256) : idx_main_v56 (ridx_main_v57 i k) = ix2 (n0 := 5) (i 1) k :=
  funext fun a => Fin.ext (by match a with | ⟨0, _⟩ => rfl | ⟨1, _⟩ => rfl)

/-- One term of the second layer's neighbour product. -/
theorem term52 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S5x256, .f32⟩ : BufTy).Contents (Elt Ideal))
    (i : S50000x5.Idx) (k : Fin 256) :
    val_main_v50 (F := Ideal) x0 x1 x2 x3 x4 (lidx_main_v52 i k) * val_main_v51 (F := Ideal) x5 (ridx_main_v52 i k)
      = Ideal.div (val_main_v41 (F := Ideal) x0 x1 x2 x3 x4 (ix2 (n0 := 50000) (i 0) k)) (val_main_v47 (F := Ideal) x1 (ix1 (n := 50000) (i 0)))
          * x5 (ix2 (n0 := 5) (i 1) k) := by
  rw [val_main_v50_apply, val_main_v49_apply, val_main_v48_apply, val_main_v51_apply, ridx52, cidx52, lidx52,
    Ideal.hostDivf_def]

/-- One term of the second layer's root product: the hidden features against the untransposed weight. -/
theorem term57 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x7 : (⟨S5x256, .f32⟩ : BufTy).Contents (Elt Ideal))
    (i : S50000x5.Idx) (k : Fin 256) :
    val_main_v31 (F := Ideal) x0 x1 x2 x3 x4 (lidx_main_v57 i k) * val_main_v56 (F := Ideal) x7 (ridx_main_v57 i k)
      = val_main_v31 (F := Ideal) x0 x1 x2 x3 x4 (ix2 (n0 := 50000) (i 0) k) * x7 (ix2 (n0 := 5) (i 1) k) := by
  rw [val_main_v56_apply, ridx57, lidx57]

/-- The reference's output is the reference-arrangement layer of the second neighbour sum, the second clamped count, the
    hidden features and the second layer's three parameters. -/
theorem ref_out (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S5x256, .f32⟩ : BufTy).Contents (Elt Ideal)) (x6 : (⟨S5, .f32⟩ : BufTy).Contents (Elt Ideal)) (x7 : (⟨S5x256, .f32⟩ : BufTy).Contents (Elt Ideal)) :
    val_main_v59 (F := Ideal) x0 x1 x2 x3 x4 x5 x6 x7 = Cert.Sage.layerR 50000 256 5 (val_main_v41 (F := Ideal) x0 x1 x2 x3 x4) (val_main_v47 (F := Ideal) x1) (val_main_v31 (F := Ideal) x0 x1 x2 x3 x4) x5 x6 x7 := by
  funext i
  rw [val_main_v59_apply, val_main_call1_v0_apply, val_main_call1_cst_apply, val_main_v58_apply, val_main_v55_apply,
    val_main_v52_apply, val_main_v54_apply, val_main_v53_apply, val_main_v57_apply, bidx54,
    Finset.sum_congr rfl fun k _ => term52 x0 x1 x2 x3 x4 x5 i k,
    Finset.sum_congr rfl fun k _ => term57 x0 x1 x2 x3 x4 x7 i k,
    Ideal.maximumf_def, Ideal.addf_def, Ideal.addf_def, Ideal.ofBits_def]
  unfold Cert.Sage.layerR
  rfl

/-! ### The clamped counts are at least one -/

/-- A maximum with the word of `1.0` is positive, hence not zero. -/
theorem max_oneW_ne_zero (a : EReal) : max a Cert.Sage.oneW ≠ 0 := by
  have h : (0 : EReal) < max a Cert.Sage.oneW := lt_max_of_lt_right (by rw [Cert.Sage.oneW_eq]; exact zero_lt_one)
  exact h.ne'

theorem cnt_ne_zero (x1 : (⟨S2x800000, .i32⟩ : BufTy).Contents (Elt Ideal)) (r : S50000.Idx) :
    val_main_v19 (F := Ideal) x1 r ≠ 0 := by
  rw [val_main_v19_apply, val_main_v18_apply, val_main_cst_3_apply, Ideal.maximumf_def, Ideal.ofBits_def]
  exact max_oneW_ne_zero _

theorem cnt2_ne_zero (x1 : (⟨S2x800000, .i32⟩ : BufTy).Contents (Elt Ideal)) (r : S50000.Idx) :
    val_main_v47 (F := Ideal) x1 r ≠ 0 := by
  rw [val_main_v47_apply, val_main_v46_apply, val_main_cst_9_apply, Ideal.maximumf_def, Ideal.ofBits_def]
  exact max_oneW_ne_zero _

end Cert.ReferenceIdeal.Sage

end
-- ==== Proof.lean ====
/-
  The certificate's claims for a two-layer GraphSAGE network with mean aggregation: each layer is
      h'(i, ·) = relu (mean_{j → i} h(j, ·) · Wl^T + h(i, ·) · Wr^T + b),
  the mean over the edges into `i` being the neighbour sum divided by `max (in-degree, 1)`.
  The kernel computes the aggregation on the host, as `agg · (1 / cnt)`, and each layer's two matrix products, bias and
  relu in a pipelined region over row blocks of 2000 nodes; the reference is the plain array program, dividing
  `agg / cnt`. At the ideal instance (exact extended reals; a change of float format is the identity, so the kernel's
  narrowing of the matrix products' operands does nothing) the two results are equal:
    • each region's output array is one whole-array function of its input arrays (Region0, Region1);
    • the host operations hand the regions `agg · (1 / cnt)`, the features, the transposed weights and the bias row, and
      the gather / scatter-add / degree-count operations are the reference's own, on the same operands (Glue0, Glue1);
    • `a · (1 / c) = a / c` for `c ≠ 0` — and `cnt ≥ 1` —, and the order of the three summands of a layer does not
      matter on the extended reals (Spec); no finiteness of the inputs is needed;
    • the reference's stages, read at an index, are that same layer (RefLayer).
  The three frame claims are the generated frames; the idealization rewrote nothing, so `preserves` is trivial.
-/
import proofs.«123070_j77180562309272_1_alg».proof.Defs
import proofs.«123070_j77180562309272_1_alg».proof.Proof.Gen.Kernel
import proofs.«123070_j77180562309272_1_alg».proof.Proof.Gen.Kernel.Skeleton
import proofs.«123070_j77180562309272_1_alg».proof.Proof.Gen.Kernel.Launch
import proofs.«123070_j77180562309272_1_alg».proof.Proof.Gen.Kernel.Points
import proofs.«123070_j77180562309272_1_alg».proof.Proof.Gen.Kernel.Frame
import proofs.«123070_j77180562309272_1_alg».proof.Proof.Gen.KernelIdeal
import proofs.«123070_j77180562309272_1_alg».proof.Proof.Gen.KernelIdeal.Skeleton
import proofs.«123070_j77180562309272_1_alg».proof.Proof.Gen.KernelIdeal.Launch
import proofs.«123070_j77180562309272_1_alg».proof.Proof.Gen.KernelIdeal.Points
import proofs.«123070_j77180562309272_1_alg».proof.Proof.Gen.KernelIdeal.Frame
import proofs.«123070_j77180562309272_1_alg».proof.Proof.Gen.ReferenceIdeal
import proofs.«123070_j77180562309272_1_alg».proof.Proof.Gen.ReferenceIdeal.Run
import proofs.«123070_j77180562309272_1_alg».proof.Proof.Gen.ReferenceIdeal.Read
import proofs.«123070_j77180562309272_1_alg».proof.Proof.Gen.Pre_finite_inputs
import proofs.«123070_j77180562309272_1_alg».proof.Proof.KRun
import proofs.«123070_j77180562309272_1_alg».proof.Proof.Glue1
import proofs.«123070_j77180562309272_1_alg».proof.Proof.Region0
import proofs.«123070_j77180562309272_1_alg».proof.Proof.Region1
import proofs.«123070_j77180562309272_1_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem

/-- The kernel's result array at the last boundary is the reference's last stage of the kernel's arguments. -/
theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 (F := Ideal) m ρ c (Proc.devRef .tc Cert.KernelIdeal.main_v45)
      = Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  have hH := Cert.KernelIdeal.Sage.hidden_eq m ρ c
    (Cert.KernelIdeal.Sage.region0_array (Cert.KernelIdeal.Gen.V1 m ρ) c)
    (Cert.ReferenceIdeal.Sage.ref_hidden _ _ _ _ _)
    (Cert.ReferenceIdeal.Sage.cnt_ne_zero _)
  Cert.KernelIdeal.Sage.out_eq m ρ c hH
    (Cert.KernelIdeal.Sage.region1_array (Cert.KernelIdeal.Gen.V3 m ρ) c)
    (Cert.ReferenceIdeal.Sage.ref_out _ _ _ _ _ _ _ _)
    (Cert.ReferenceIdeal.Sage.cnt2_ne_zero _)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- Both idealized programs run, and from memories agreeing on the arguments both end with the reference's last stage of
    those arguments in their result arrays: the kernel's by `kernel_out`, the reference's by its own run. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_out m ρ c), (h c).2⟩)
      (Cert.KernelIdeal.Sage.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
